-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg6
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x512 .f32) (main_arg1 : IVec S800000 32) (main_arg2 : IVec S800000 32) (main_arg3 : FVec F S800000 .f32) (main_arg4 : FVec F S512x128 .f32) (main_arg5 : FVec F S128 .f32) (main_arg6 : FVec F S128x40 .f32) (main_arg7 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S50000x128 : Shape := ⟨2, ![50000, 128]⟩
abbrev S5000x512 : Shape := ⟨2, ![5000, 512]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x40 : Shape := ⟨2, ![50000, 40]⟩
abbrev S2000x128 : Shape := ⟨2, ![2000, 128]⟩
abbrev S2000x40 : Shape := ⟨2, ![2000, 40]⟩
abbrev S800000x40 : Shape := ⟨2, ![800000, 40]⟩
abbrev S1x40 : Shape := ⟨2, ![1, 40]⟩

abbrev nBuf : Space → Nat
  | .hbm => 48
  | .vmem => 11
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S50000x128, .bf16⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .bf16⟩
  | .hbm, ⟨18, _⟩ => ⟨S800000x128, .f32⟩
  | .hbm, ⟨19, _⟩ => ⟨S800000x1, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S1x128, .f32⟩
  | .hbm, ⟨27, _⟩ => ⟨S50000x40, .bf16⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x40, .bf16⟩
  | .hbm, ⟨37, _⟩ => ⟨S800000x40, .f32⟩
  | .hbm, ⟨38, _⟩ => ⟨S800000x1, .f32⟩
  | .hbm, ⟨39, _⟩ => ⟨S800000x40, .f32⟩
  | .hbm, ⟨40, _⟩ => ⟨S800000x40, .f32⟩
  | .hbm, ⟨41, _⟩ => ⟨S_, .f32⟩
  | .hbm, ⟨42, _⟩ => ⟨S50000x40, .f32⟩
  | .hbm, ⟨43, _⟩ => ⟨S800000x1, .i32⟩
  | .hbm, ⟨44, _⟩ => ⟨S50000x40, .f32⟩
  | .hbm, ⟨45, _⟩ => ⟨S1x40, .f32⟩
  | .hbm, ⟨46, _⟩ => ⟨S50000x40, .f32⟩
  | .hbm, ⟨47, _⟩ => ⟨S50000x40, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .bf16⟩
  | .local _ .vmem, ⟨4, _⟩ => ⟨S5000x128, .bf16⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x40, .f32⟩
  | .local _ .vmem, ⟨9, _⟩ => ⟨S2000x40, .bf16⟩
  | .local _ .vmem, ⟨10, _⟩ => ⟨S2000x40, .bf16⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x40 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  packedbf16_S2000x40_S2000x40_0_0 : (Rect.unit (s := S2000x40) ![0, 0] S2000x40.size inb_S2000x40_S2000x40_0_0).PackedRows (EltTy.packing .bf16)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S5000x512_S512x128_S5000x128_1_0_0_1_n_n_wf : DotDims.WF S5000x512 S512x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x40_S2000x40_1_0_0_1_n_n_wf : DotDims.WF S2000x128 S128x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S50000x40.size a
  hwx1_3 : ∀ i : grid1.Coords, EltTy.bits .bf16 = 32 ∨ (Rect.block (s := S50000x40) S2000x40.size (cc1_transform_3 i) (hinb1_3 i)).WholeWords (EltTy.packing .bf16)

variable [Facts₀]

def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 51
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S50000x128, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x40, .f32⟩
  | .hbm, ⟨32, _⟩ => ⟨S800000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x40, .f32⟩
  | .hbm, ⟨42, _⟩ => ⟨S800000x40, .f32⟩
  | .hbm, ⟨43, _⟩ => ⟨S800000x40, .f32⟩
  | .hbm, ⟨44, _⟩ => ⟨S_, .f32⟩
  | .hbm, ⟨45, _⟩ => ⟨S50000x40, .f32⟩
  | .hbm, ⟨46, _⟩ => ⟨S800000x1, .i32⟩
  | .hbm, ⟨47, _⟩ => ⟨S50000x40, .f32⟩
  | .hbm, ⟨48, _⟩ => ⟨S1x40, .f32⟩
  | .hbm, ⟨49, _⟩ => ⟨S50000x40, .f32⟩
  | .hbm, ⟨50, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.GraphConv.lean ====
/-
  A two-layer graph convolution as ONE function of its eight arguments, at the ideal values (floats are extended reals,
  every operation exact). With `A` the sparse adjacency given in coordinate form — edge `e` carries weight `w e` from node
  `col e` (a negative index counted from the end) into node `row e` — the result is

      A · (relu (A · (x · w1) + b1) · w2) + b2,

  where `A · t` gathers the source rows of `t`, scales each by its edge weight and adds it into the destination row
  (`aggregate128`, `aggregate40`: the host's gather, product and scatter-add, kept as they are printed), `x · w1` and
  `h · w2` are the host's plain matrix products and the biases are rows repeated down the nodes. The terms are spelt
  with the reference program's own shapes and dimension records, so the reference's result is this function by unfolding.
-/
import proofs.«159302_j83099027243170_2_alg».proof.Proof.Gen.ReferenceIdeal
import Idealize.ShloMosaic.PureOps.Ideal

noncomputable section

namespace Cert.GraphConv

open Idealize.ShloMosaic Cert.ReferenceIdeal Cert.ReferenceIdeal.Gen

/-- The gather's start indices: each edge's source node, a negative one counted from the end (`col + 50000`), as a column. -/
def sourceIdx (col : IVec S800000 32) : IVec S800000x1 32 :=
  broadcastInDim S800000x1 ![0] bcast_S800000_S800000x1_0 (select (cmpi .slt col (broadcastInDim S800000 ![] bcast_S_S800000 (constantI S_ 32 0#32))) (addi col (broadcastInDim S800000 ![] bcast_S_S800000 (constantI S_ 32 50000#32))) col)

/-- `A · t` for a table of 128 columns: row `row e` receives `w e` times row `col e` of `t`, summed over the edges. -/
def aggregate128 (row col : IVec S800000 32) (w : FVec Ideal S800000 .f32) (t : FVec Ideal S50000x128 .f32) : FVec Ideal S50000x128 .f32 :=
  Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 row) (mulf (F := Ideal) (broadcastInDim S800000x128 ![0, 1] bcast_S800000x1_S800000x128_0_1 (broadcastInDim S800000x1 ![0] bcast_S800000_S800000x1_0 w)) (Host.gather gather_S50000x128_S800000x1_S800000x128_1_0_n_n_0_1_1128 t (sourceIdx col)))

/-- `A · t` for a table of 40 columns. -/
def aggregate40 (row col : IVec S800000 32) (w : FVec Ideal S800000 .f32) (t : FVec Ideal S50000x40 .f32) : FVec Ideal S50000x40 .f32 :=
  Host.scatterAdd (F := Ideal) scatter_S50000x40_S800000x1_S800000x40_1_0_0_1 (broadcastInDim S50000x40 ![] bcast_S_S50000x40 (constant (F := Ideal) S_ .f32 0x00000000#32)) (broadcastInDim S800000x1 ![0] bcast_S800000_S800000x1_0 row) (mulf (F := Ideal) (broadcastInDim S800000x40 ![0, 1] bcast_S800000x1_S800000x40_0_1 (broadcastInDim S800000x1 ![0] bcast_S800000_S800000x1_0 w)) (Host.gather gather_S50000x40_S800000x1_S800000x40_1_0_n_n_0_1_140 t (sourceIdx col)))

/-- The first layer's dense product `x · w1`. -/
def dense1 (x : FVec Ideal S50000x512 .f32) (w1 : FVec Ideal S512x128 .f32) : FVec Ideal S50000x128 .f32 :=
  Host.dotGeneral (F := Ideal) dot_S50000x512_S512x128_S50000x128_1_0_0_1_n_n none x w1

/-- The hidden activation `relu (s + b1)`: the bias row repeated down the nodes, then the maximum with zero. -/
def hidden (s : FVec Ideal S50000x128 .f32) (b1 : FVec Ideal S128 .f32) : FVec Ideal S50000x128 .f32 :=
  maximumf (F := Ideal) (addf (F := Ideal) s (broadcastInDim S50000x128 ![0, 1] bcast_S1x128_S50000x128_0_1 (broadcastInDim S1x128 ![1] bcast_S128_S1x128_1 b1))) (broadcastInDim S50000x128 ![] bcast_S_S50000x128 (constant (F := Ideal) S_ .f32 0x00000000#32))

/-- The second layer's dense product `h · w2`. -/
def dense2 (h : FVec Ideal S50000x128 .f32) (w2 : FVec Ideal S128x40 .f32) : FVec Ideal S50000x40 .f32 :=
  Host.dotGeneral (F := Ideal) dot_S50000x128_S128x40_S50000x40_1_0_0_1_n_n none h w2

/-- The output bias: `s + b2`, the bias row repeated down the nodes. -/
def addBias40 (s : FVec Ideal S50000x40 .f32) (b2 : FVec Ideal S40 .f32) : FVec Ideal S50000x40 .f32 :=
  addf (F := Ideal) s (broadcastInDim S50000x40 ![0, 1] bcast_S1x40_S50000x40_0_1 (broadcastInDim S1x40 ![1] bcast_S40_S1x40_1 b2))

/-- The whole network: `A · (relu (A · (x · w1) + b1) · w2) + b2`. -/
def network (x : FVec Ideal S50000x512 .f32) (row col : IVec S800000 32) (w : FVec Ideal S800000 .f32)
    (w1 : FVec Ideal S512x128 .f32) (b1 : FVec Ideal S128 .f32) (w2 : FVec Ideal S128x40 .f32) (b2 : FVec Ideal S40 .f32) :
    FVec Ideal S50000x40 .f32 :=
  addBias40 (aggregate40 row col w (dense2 (hidden (aggregate128 row col w (dense1 x w1)) b1) w2)) b2

end Cert.GraphConv

end
-- ==== Proof.KernelRun.lean ====
/-
  The idealized kernel program's run with its RESULT named. The program is two kernel regions among two stretches of host
  operations; the buffer contents at each boundary are a fold from the launch memory (`Gen.W0 … Gen.W4`), and at the return
  every unscoped buffer holds the last boundary's contents `W4`. So besides the arguments, which end as launched, the result
  buffer ends at `W4` read at it: what the last host stretch computes from what the second region left.
-/
import proofs.«159302_j83099027243170_2_alg».proof.Proof.Gen.KernelIdeal.Frame

set_option maxRecDepth 16384

noncomputable section

namespace Cert.KernelIdeal.Res

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Res

end
-- ==== Proof.HostStretches.lean ====
/-
  The idealized kernel program's two stretches of host operations, read at the ideal values. Between the two kernel regions
  the host gathers the source rows of the first region's product, scales them by the edge weights and adds them into
  the destination rows; after the second region it does the same with the second product and adds the output bias. Both
  stretches are the specification's `aggregate` chains of what the region before them left: the host's gather reads the
  same entries whatever format the table is stored in (a change of float format is the identity on extended reals), and
  the only law used is that the product of an entry and its edge weight does not depend on the order of the factors.
  The arguments the stretches read are written by nothing on the way, so they are read back to the launch memory.
-/
import proofs.«159302_j83099027243170_2_alg».proof.Proof.Gen.KernelIdeal.Frame
import proofs.«159302_j83099027243170_2_alg».proof.Proof.GraphConv
import Idealize.ShloMosaic.Lib.StableHlo.Run
import Idealize.ShloMosaic.PureOps.Ideal

set_option maxRecDepth 16384

noncomputable section

namespace Cert.KernelIdeal.Res

open Idealize.ShloMosaic Idealize.ShloMosaic.TcCoe Idealize.SL.Sem Idealize.ShloMosaic.StableHlo
open Cert.KernelIdeal Cert.KernelIdeal.Gen

/-- On extended reals the elementwise product of two arrays does not depend on the order of the factors. -/
theorem mulf_comm_ideal {s : Shape} {φ : FTy} (a b : FVec Ideal s φ) : mulf a b = mulf b a :=
  funext fun i => mul_comm (a i) (b i)

variable (m : (ℓ : Loc nD τ sig) → Buf (Elt Ideal) ℓ) (ρ : Dev nD → PrngReg)

/-! ## The arguments, read back through the fold -/

/-- Argument 1 is no array of the first region: after it the buffer holds what was launched. -/
theorem W1_main_arg1 (c : Dev nD) : W1 m ρ c (Proc.devRef .tc main_arg1) = m ((c : Thread nD τ).loc main_arg1) :=
  (W1_of_ne m ρ c main_arg1 (by decide)).trans rfl
/-- Argument 2 is no array of the first region: after it the buffer holds what was launched. -/
theorem W1_main_arg2 (c : Dev nD) : W1 m ρ c (Proc.devRef .tc main_arg2) = m ((c : Thread nD τ).loc main_arg2) :=
  (W1_of_ne m ρ c main_arg2 (by decide)).trans rfl
/-- Argument 3 is no array of the first region: after it the buffer holds what was launched. -/
theorem W1_main_arg3 (c : Dev nD) : W1 m ρ c (Proc.devRef .tc main_arg3) = m ((c : Thread nD τ).loc main_arg3) :=
  (W1_of_ne m ρ c main_arg3 (by decide)).trans rfl
/-- Argument 5 is no array of the first region: after it the buffer holds what was launched. -/
theorem W1_main_arg5 (c : Dev nD) : W1 m ρ c (Proc.devRef .tc main_arg5) = m ((c : Thread nD τ).loc main_arg5) :=
  (W1_of_ne m ρ c main_arg5 (by decide)).trans rfl
/-- Argument 6 is no array of the first region: after it the buffer holds what was launched. -/
theorem W1_main_arg6 (c : Dev nD) : W1 m ρ c (Proc.devRef .tc main_arg6) = m ((c : Thread nD τ).loc main_arg6) :=
  (W1_of_ne m ρ c main_arg6 (by decide)).trans rfl
/-- Argument 7 is no array of the first region: after it the buffer holds what was launched. -/
theorem W1_main_arg7 (c : Dev nD) : W1 m ρ c (Proc.devRef .tc main_arg7) = m ((c : Thread nD τ).loc main_arg7) :=
  (W1_of_ne m ρ c main_arg7 (by decide)).trans rfl

/-- Argument 1 is written by no host operation and is no array of either region: at the second region's exit the
    buffer still holds what was launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W1_main_arg1 m ρ c
/-- Argument 2 is written by no host operation and is no array of either region: at the second region's exit the
    buffer still holds what was launched. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W1_main_arg2 m ρ c
/-- Argument 3 is written by no host operation and is no array of either region: at the second region's exit the
    buffer still holds what was launched. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W1_main_arg3 m ρ c
/-- Argument 7 is written by no host operation and is no array of either region: at the second region's exit the
    buffer still holds what was launched. -/
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W1_main_arg7 m ρ c

/-! ## The stretch after the second region -/

set_option maxHeartbeats 2000000 in
/-- The result: the second region's product aggregated over the edges, plus the output bias. -/
theorem W4_result (c : Dev nD) : W4 m ρ c (Proc.devRef .tc main_v33)
    = Cert.GraphConv.addBias40 (Cert.GraphConv.aggregate40 (m ((c : Thread nD τ).loc main_arg1)) (m ((c : Thread nD τ).loc main_arg2))
        (m ((c : Thread nD τ).loc main_arg3)) (W3 m ρ c (Proc.devRef .tc main_v16))) (m ((c : Thread nD τ).loc main_arg7)) := by
  show StableHlo.after hostOps2 (W3 m ρ c) (Proc.devRef .tc main_v33) = _
  after_results_simp
  rw [W3_main_arg1, W3_main_arg2, W3_main_arg3, W3_main_arg7]
  generalize W3 m ρ c (Proc.devRef .tc main_v16) = t
  unfold Cert.GraphConv.addBias40 Cert.GraphConv.aggregate40 Cert.GraphConv.sourceIdx
  rw [mulf_comm_ideal]
  rfl

/-! ## The stretch between the regions -/

set_option maxHeartbeats 2000000 in
/-- The second region's first operand: the first region's product aggregated over the edges. -/
theorem W2_main_v14 (c : Dev nD) : W2 m ρ c (Proc.devRef .tc main_v14)
    = Cert.GraphConv.aggregate128 (m ((c : Thread nD τ).loc main_arg1)) (m ((c : Thread nD τ).loc main_arg2))
        (m ((c : Thread nD τ).loc main_arg3)) (W1 m ρ c (Proc.devRef .tc main_v0)) := by
  show StableHlo.after hostOps1 (W1 m ρ c) (Proc.devRef .tc main_v14) = _
  after_results_simp
  rw [W1_main_arg1, W1_main_arg2, W1_main_arg3]
  generalize W1 m ρ c (Proc.devRef .tc main_v0) = t
  unfold Cert.GraphConv.aggregate128 Cert.GraphConv.sourceIdx
  rw [mulf_comm_ideal]
  rfl

set_option maxHeartbeats 2000000 in
/-- Its second operand: the hidden bias as one row. -/
theorem W2_main_v15 (c : Dev nD) : W2 m ρ c (Proc.devRef .tc main_v15)
    = shapeCast S1x128 (m ((c : Thread nD τ).loc main_arg5)) shapeCasts_S128_S1x128 := by
  show StableHlo.after hostOps1 (W1 m ρ c) (Proc.devRef .tc main_v15) = _
  after_results_simp
  rw [W1_main_arg5]
  rfl

/-- Its third operand: the second weight matrix, as launched. -/
theorem W2_main_arg6 (c : Dev nD) : W2 m ρ c (Proc.devRef .tc main_arg6) = m ((c : Thread nD τ).loc main_arg6) :=
  (StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg6 m ρ c)

end Cert.KernelIdeal.Res

end
-- ==== Proof.Region0.lean ====
/-
  The first kernel region, at the ideal values: a row-tiled matrix product. The grid has ten points; point `t` loads
  rows `5000·t … 5000·t + 4999` of the left matrix and the whole right matrix, and stores their product (the matrix unit
  accumulating into zero; the changes of float format are the identity on extended reals) as the same rows of the output.
  So entry `(r, c)` of the block is `∑ k, left (5000·t + r, k) · right (k, c)`, which is entry `(5000·t + r, c)` of the whole
  product `left · right` — the specification's `dense1`. Every row `r` of the output lies in the block of point `r / 5000`, so
  after the region the output array is `dense1` of the two arrays the region found.
-/
import proofs.«159302_j83099027243170_2_alg».proof.Proof.Gen.KernelIdeal.Frame
import proofs.«159302_j83099027243170_2_alg».proof.Proof.Gen.ReferenceIdeal.Read
import proofs.«159302_j83099027243170_2_alg».proof.Proof.GraphConv
import Idealize.ShloMosaic.Lib.Pipeline.Value
import Idealize.ShloMosaic.Lib.ValueIdx
import Idealize.ShloMosaic.PureOps.Ideal.Laws

set_option maxRecDepth 16384

noncomputable section

namespace Cert.KernelIdeal.Res

open Idealize.ShloMosaic Idealize.ShloMosaic.TcCoe Idealize.SL.Sem
open Idealize.ShloMosaic.Pipeline (Dat)
open Cert.KernelIdeal Cert.KernelIdeal.Gen

/-! ## One block's product, entry by entry -/

/-- The left operand's entry that term `k` of output entry `j` reads: row of `j`, column `k`. -/
abbrev lhs0At (j : S5000x128.Idx) (k : Fin 512) : S5000x512.Idx := fun a => match a with
  | ⟨0, _⟩ => ⟨(j 0).val, (j 0).isLt⟩
  | ⟨1, _⟩ => ⟨k.val, k.isLt⟩
/-- The right operand's: row `k`, column of `j`. -/
abbrev rhs0At (j : S5000x128.Idx) (k : Fin 512) : S512x128.Idx := fun a => match a with
  | ⟨0, _⟩ => ⟨k.val, k.isLt⟩
  | ⟨1, _⟩ => ⟨(j 1).val, (j 1).isLt⟩

theorem lhs0_row (i : S5000x128.Idx) (q : dot_S5000x512_S512x128_S5000x128_1_0_0_1_n_n.contr.Idx) : (dot_S5000x512_S512x128_S5000x128_1_0_0_1_n_n.lhsIdx i q 0).val = (i 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
theorem lhs0_col (i : S5000x128.Idx) (q : dot_S5000x512_S512x128_S5000x128_1_0_0_1_n_n.contr.Idx) : (dot_S5000x512_S512x128_S5000x128_1_0_0_1_n_n.lhsIdx i q 1).val = (q ⟨0, by decide⟩).val :=
  dot_S5000x512_S512x128_S5000x128_1_0_0_1_n_n.lhsIdx_val_of_single rfl i q
theorem rhs0_row (i : S5000x128.Idx) (q : dot_S5000x512_S512x128_S5000x128_1_0_0_1_n_n.contr.Idx) : (dot_S5000x512_S512x128_S5000x128_1_0_0_1_n_n.rhsIdx i q 0).val = (q ⟨0, by decide⟩).val :=
  dot_S5000x512_S512x128_S5000x128_1_0_0_1_n_n.rhsIdx_val_of_single rfl i q
theorem rhs0_col (i : S5000x128.Idx) (q : dot_S5000x512_S512x128_S5000x128_1_0_0_1_n_n.contr.Idx) : (dot_S5000x512_S512x128_S5000x128_1_0_0_1_n_n.rhsIdx i q 1).val = (i 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

/-- The block the body stores, at entry `j`: the sum over the 512 columns of the left block's row times the right
    matrix's column. -/
theorem pay0_apply (x0 : Vec Ideal S5000x512 .f32) (x1 : Vec Ideal S512x128 .f32) (j : S5000x128.Idx) :
    k0_pay1 (F := Ideal) x0 x1 j = ∑ k : Fin 512, x0 (lhs0At j k) * x1 (rhs0At j k) := by
  unfold k0_pay1
  show FloatOps.matmul (F := Ideal) dot_S5000x512_S512x128_S5000x128_1_0_0_1_n_n none (truncf (F := Ideal) .bf16 x0 bitsLt_bf16_f32) (truncf (F := Ideal) .bf16 x1 bitsLt_bf16_f32) (constant (F := Ideal) S5000x128 .f32 0x00000000#32) j = _
  rw [Ideal.matmul_constant_zero_apply, ← Equiv.sum_comp (ValueIdx.contrEquiv1 dot_S5000x512_S512x128_S5000x128_1_0_0_1_n_n 512 rfl rfl).symm]
  refine Finset.sum_congr rfl fun k _ => ?_
  have hk := ValueIdx.contrEquiv1_symm_val dot_S5000x512_S512x128_S5000x128_1_0_0_1_n_n 512 rfl rfl k
  have el : dot_S5000x512_S512x128_S5000x128_1_0_0_1_n_n.lhsIdx j ((ValueIdx.contrEquiv1 dot_S5000x512_S512x128_S5000x128_1_0_0_1_n_n 512 rfl rfl).symm k) = lhs0At j k := funext fun a => Fin.ext (by
    match a with
    | ⟨0, _⟩ => exact lhs0_row _ _
    | ⟨1, _⟩ => exact (lhs0_col _ _).trans hk)
  have er : dot_S5000x512_S512x128_S5000x128_1_0_0_1_n_n.rhsIdx j ((ValueIdx.contrEquiv1 dot_S5000x512_S512x128_S5000x128_1_0_0_1_n_n 512 rfl rfl).symm k) = rhs0At j k := funext fun a => Fin.ext (by
    match a with
    | ⟨0, _⟩ => exact (rhs0_row _ _).trans hk
    | ⟨1, _⟩ => exact rhs0_col _ _)
  rw [el, er]
  rfl

/-! ## From the blocks to the array -/

variable (V : (c : Dev nD) → (b : Ref sig .tc) → Buf (Elt Ideal) ((c : Thread nD τ).loc b))

theorem origin2 : (![0, 0] : Fin 2 → Nat) = fun _ => 0 := funext fun a => by fin_cases a <;> rfl

/-- The printed index maps over the grid: the left and the output window move down one block of rows per point, the
    right window stays; the output's block row stays below ten. -/
theorem index_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every block row is some point's. -/
theorem index_onto0 : ∀ q : Fin 10, ∃ t : Fin cfg0.N, win0_2.index t = ![q.val, 0] :=
  (by decide +kernel : ∀ q : Fin 10, ∃ t : Fin grid0.N, win0_2.index t = ![q.val, 0])

/-- The whole product, as the specification spells it, of the two arrays the region finds. -/
abbrev product0 (c : Dev nD) : S50000x128.Idx → EReal :=
  Cert.GraphConv.dense1 (V c main_arg0) (V c main_arg4)

/-- The whole product at an entry: the sum over the 512 columns. -/
theorem product0_apply (X : FVec Ideal Cert.ReferenceIdeal.S50000x512 .f32) (W : FVec Ideal Cert.ReferenceIdeal.S512x128 .f32)
    (i : Cert.ReferenceIdeal.S50000x128.Idx) :
    Cert.GraphConv.dense1 X W i = ∑ k : Fin 512, X (Cert.ReferenceIdeal.Read.lidx_main_v0 i k) * W (Cert.ReferenceIdeal.Read.ridx_main_v0 i k) :=
  Cert.ReferenceIdeal.Read.val_main_v0_apply X W i

/-- The left window's block at a point, read at an entry: the array the region found, at the entry's place in it. -/
theorem iblk0_left (c : Dev nD) (t : Fin cfg0.N) (y : S5000x512.Idx) :
    (iblk0 V c 0 t y : EReal) = (V c main_arg0 : S50000x512.Idx → EReal) (((cfg0.win 0).blk t).view.emb y) := rfl
/-- The right window's. -/
theorem iblk0_right (c : Dev nD) (t : Fin cfg0.N) (y : S512x128.Idx) :
    (iblk0 V c 1 t y : EReal) = (V c main_arg4 : S512x128.Idx → EReal) (((cfg0.win 1).blk t).view.emb y) := rfl

/-- WHAT POINT `t` WRITES BACK is block `t` of the whole product. -/
theorem flushed0_eq (c : Dev nD) (t : Fin cfg0.N) :
    (dat0 V c).flushed 2 t = ((cfg0.win 2).blk t).view.read (Elt Ideal) (product0 V c) := by
  show (cfg0.win 2).cut (grid0.coords t) ((dat0 V c).after 2 t) = _
  rw [after0_2]
  unfold out0_2
  rw [View.canon_unit_zero origin2]
  simp only [View.ld_unit_zero (S := S5000x512) origin2, View.ld_unit_zero (S := S512x128) origin2]
  obtain ⟨e0, e1, e2, e3, e4, e5⟩ := index_facts0 t
  funext j
  show k0_pay1 (F := Ideal) (iblk0 V c 0 t) (iblk0 V c 1 t) j = Cert.GraphConv.dense1 (V c main_arg0) (V c main_arg4) (((cfg0.win 2).blk t).view.emb j)
  rw [pay0_apply, product0_apply]
  refine Finset.sum_congr rfl fun k _ => ?_
  have hl : ((cfg0.win 0).blk t).view.emb (lhs0At j k) = Cert.ReferenceIdeal.Read.lidx_main_v0 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have hr : ((cfg0.win 1).blk t).view.emb (rhs0At j k) = Cert.ReferenceIdeal.Read.ridx_main_v0 (((cfg0.win 2).blk t).view.emb j) k := by
    funext a; apply Fin.ext
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  rw [iblk0_left V c t, iblk0_right V c t, hl, hr]

/-- An entry of the output array is in point `t`'s block iff each coordinate is in the block's range. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every entry is in the block of the point its row falls in. -/
theorem covered0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the first region is the whole product of the two arrays the region found. -/
theorem region0_array (c : Dev nD) : (dat0 V c).arrAt 2 cfg0.N = product0 V c :=
  (dat0 V c).arrAt_eq_of_cover 2 (product0 V c) (fun t _ => flushed0_eq V c t) (covered0)

end Cert.KernelIdeal.Res

end
-- ==== Proof.Region1.lean ====
/-
  The second kernel region, at the ideal values: bias, relu and a row-tiled matrix product in one body. The grid has
  twenty-five points; point `t` loads rows `2000·t … 2000·t + 1999` of the aggregated first product, the whole bias row
  and the whole second weight matrix, adds the bias row to every loaded row, takes the maximum with zero, and stores the
  product of that block with the weights (the matrix unit accumulating into zero; the changes of float format are the
  identity on extended reals) as the same rows of the output. So entry `(r, c)` of the block is
  `∑ k, max (s (2000·t + r, k) + bias (0, k)) 0 · w (k, c)`, the same formula at row `2000·t + r` of the whole array; every
  row lies in the block of point `r / 2000`, so after the region the output array is that formula at every entry.
-/
import proofs.«159302_j83099027243170_2_alg».proof.Proof.Gen.KernelIdeal.Frame
import proofs.«159302_j83099027243170_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Res

open Idealize.ShloMosaic Idealize.ShloMosaic.TcCoe Idealize.SL.Sem
open Idealize.ShloMosaic.Pipeline (Dat)
open Cert.KernelIdeal Cert.KernelIdeal.Gen

/-! ## One block's product, entry by entry -/

/-- The activation's entry that term `k` of output entry `j` reads: row of `j`, column `k`. -/
abbrev lhs1At (j : S2000x40.Idx) (k : Fin 128) : S2000x128.Idx := fun a => match a with
  | ⟨0, _⟩ => ⟨(j 0).val, (j 0).isLt⟩
  | ⟨1, _⟩ => ⟨k.val, k.isLt⟩
/-- The weights': row `k`, column of `j`. -/
abbrev rhs1At (j : S2000x40.Idx) (k : Fin 128) : S128x40.Idx := fun a => match a with
  | ⟨0, _⟩ => ⟨k.val, k.isLt⟩
  | ⟨1, _⟩ => ⟨(j 1).val, (j 1).isLt⟩
/-- The bias row's entry for column `k`. -/
abbrev biasAt (k : Fin 128) : S1x128.Idx := fun a => match a with
  | ⟨0, _⟩ => ⟨0, Nat.one_pos⟩
  | ⟨1, _⟩ => ⟨k.val, k.isLt⟩

theorem lhs1_row (i : S2000x40.Idx) (q : dot_S2000x128_S128x40_S2000x40_1_0_0_1_n_n.contr.Idx) : (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
theorem lhs1_col (i : S2000x40.Idx) (q : dot_S2000x128_S128x40_S2000x40_1_0_0_1_n_n.contr.Idx) : (dot_S2000x128_S128x40_S2000x40_1_0_0_1_n_n.lhsIdx i q 1).val = (q ⟨0, by decide⟩).val :=
  dot_S2000x128_S128x40_S2000x40_1_0_0_1_n_n.lhsIdx_val_of_single rfl i q
theorem rhs1_row (i : S2000x40.Idx) (q : dot_S2000x128_S128x40_S2000x40_1_0_0_1_n_n.contr.Idx) : (dot_S2000x128_S128x40_S2000x40_1_0_0_1_n_n.rhsIdx i q 0).val = (q ⟨0, by decide⟩).val :=
  dot_S2000x128_S128x40_S2000x40_1_0_0_1_n_n.rhsIdx_val_of_single rfl i q
theorem rhs1_col (i : S2000x40.Idx) (q : dot_S2000x128_S128x40_S2000x40_1_0_0_1_n_n.contr.Idx) : (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- The bias row repeated down the block, read at an entry of column `k`: the row's entry for `k`. -/
theorem biasRows_apply (x1 : S1x128.Idx → EReal) (y : S2000x128.Idx) (k : Fin 128) (hy : (y 1).val = k.val) :
    broadcastTo S2000x128 (shapeCast S1x128 x1 shapeCasts_S1x128_S1x128) broadcasts_S1x128_S2000x128 y = x1 (biasAt k) := by
  rw [shapeCast_self]
  refine broadcastTo_apply x1 broadcasts_S1x128_S2000x128 y (biasAt k) fun a => ?_
  match a with
  | ⟨0, _⟩ => show 0 = if (1 : Nat) = 1 then 0 else _; rw [if_pos rfl]
  | ⟨1, _⟩ => show k.val = if (128 : Nat) = 1 then 0 else (y 1).val; rw [if_neg (by decide), hy]

/-- The block the body stores, at entry `j`: the sum over the 128 hidden columns of the activated entry times the
    weight. -/
theorem pay1_apply (x0 : Vec Ideal S2000x128 .f32) (x1 : Vec Ideal S1x128 .f32) (x2 : Vec Ideal S128x40 .f32) (j : S2000x40.Idx) :
    k1_pay1 (F := Ideal) x0 x1 x2 j
      = ∑ k : Fin 128, max ((x0 (lhs1At j k) : EReal) + (x1 (biasAt k) : EReal)) 0 * (x2 (rhs1At j k) : EReal) := by
  unfold k1_pay1
  show FloatOps.matmul (F := Ideal) dot_S2000x128_S128x40_S2000x40_1_0_0_1_n_n none
      (truncf (F := Ideal) .bf16 (maximumf (F := Ideal) (addf (F := Ideal) (shapeCast S2000x128 x0 shapeCasts_S2000x128_S2000x128)
        (broadcastTo S2000x128 (shapeCast S1x128 x1 shapeCasts_S1x128_S1x128) broadcasts_S1x128_S2000x128))
        (broadcast S2000x128 (Scalar.ofBits (F := Ideal) .f32 0x00000000#32))) bitsLt_bf16_f32)
      (truncf (F := Ideal) .bf16 x2 bitsLt_bf16_f32) (constant (F := Ideal) S2000x40 .f32 0x00000000#32) j = _
  rw [Ideal.matmul_constant_zero_apply, ← Equiv.sum_comp (ValueIdx.contrEquiv1 dot_S2000x128_S128x40_S2000x40_1_0_0_1_n_n 128 rfl rfl).symm]
  refine Finset.sum_congr rfl fun k _ => ?_
  have hk := ValueIdx.contrEquiv1_symm_val dot_S2000x128_S128x40_S2000x40_1_0_0_1_n_n 128 rfl rfl k
  have el : dot_S2000x128_S128x40_S2000x40_1_0_0_1_n_n.lhsIdx j ((ValueIdx.contrEquiv1 dot_S2000x128_S128x40_S2000x40_1_0_0_1_n_n 128 rfl rfl).symm k) = lhs1At j k := funext fun a => Fin.ext (by
    match a with
    | ⟨0, _⟩ => exact lhs1_row _ _
    | ⟨1, _⟩ => exact (lhs1_col _ _).trans hk)
  have er : dot_S2000x128_S128x40_S2000x40_1_0_0_1_n_n.rhsIdx j ((ValueIdx.contrEquiv1 dot_S2000x128_S128x40_S2000x40_1_0_0_1_n_n 128 rfl rfl).symm k) = rhs1At j k := funext fun a => Fin.ext (by
    match a with
    | ⟨0, _⟩ => exact (rhs1_row _ _).trans hk
    | ⟨1, _⟩ => exact rhs1_col _ _)
  rw [el, er]
  show max ((shapeCast S2000x128 x0 shapeCasts_S2000x128_S2000x128 (lhs1At j k) : EReal)
      + (broadcastTo S2000x128 (shapeCast S1x128 x1 shapeCasts_S1x128_S1x128) broadcasts_S1x128_S2000x128 (lhs1At j k) : EReal))
      (Ideal.ofBits .f32 0x00000000#32) * (x2 (rhs1At j k) : EReal) = _
  rw [shapeCast_self, biasRows_apply x1 (lhs1At j k) k rfl, Ideal.ofBits_zero_f32]

/-! ## From the blocks to the array -/

variable (V : (c : Dev nD) → (b : Ref sig .tc) → Buf (Elt Ideal) ((c : Thread nD τ).loc b))

theorem origin2' : (![0, 0] : Fin 2 → Nat) = fun _ => 0 := funext fun a => by fin_cases a <;> rfl

/-- The printed index maps over the grid: the activation's and the output's window move down one block of rows per
    point, the bias row and the weights stay; the output's block row stays below twenty-five. -/
theorem index_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) ≤ 24
    ∧ win1_3.index t (1 : Fin 2) = 0 :=
  (by decide +kernel : ∀ t : Fin grid1.N, _)

/-- Every block row is some point's. -/
theorem index_onto1 : ∀ q : Fin 25, ∃ t : Fin cfg1.N, win1_3.index t = ![q.val, 0] :=
  (by decide +kernel : ∀ q : Fin 25, ∃ t : Fin grid1.N, win1_3.index t = ![q.val, 0])

/-- The whole output, entry by entry, of an aggregated table `s`, a bias row `b` and weights `w`: the activated row times
    the weight column. -/
def activatedProduct (s : S50000x128.Idx → EReal) (b : S1x128.Idx → EReal) (w : S128x40.Idx → EReal) : S50000x40.Idx → EReal := fun i =>
  ∑ k : Fin 128, max (s (Cert.ReferenceIdeal.Read.lidx_main_v18 i k) + b (biasAt k)) 0 * w (Cert.ReferenceIdeal.Read.ridx_main_v18 i k)

/-- That formula of the three arrays the region finds. -/
abbrev product1 (c : Dev nD) : S50000x40.Idx → EReal :=
  activatedProduct (V c main_v14) (V c main_v15) (V c main_arg6)

/-- The three input windows' blocks at a point, read at an entry: the arrays the region found, at the entry's place. -/
theorem iblk1_act (c : Dev nD) (t : Fin cfg1.N) (y : S2000x128.Idx) :
    (iblk1 V c 0 t y : EReal) = (V c main_v14 : S50000x128.Idx → EReal) (((cfg1.win 0).blk t).view.emb y) := rfl
theorem iblk1_bias (c : Dev nD) (t : Fin cfg1.N) (y : S1x128.Idx) :
    (iblk1 V c 1 t y : EReal) = (V c main_v15 : S1x128.Idx → EReal) (((cfg1.win 1).blk t).view.emb y) := rfl
theorem iblk1_weights (c : Dev nD) (t : Fin cfg1.N) (y : S128x40.Idx) :
    (iblk1 V c 2 t y : EReal) = (V c main_arg6 : S128x40.Idx → EReal) (((cfg1.win 2).blk t).view.emb y) := rfl

/-- WHAT POINT `t` WRITES BACK is block `t` of the whole output. -/
theorem flushed1_eq (c : Dev nD) (t : Fin cfg1.N) :
    (dat1 V c).flushed 3 t = ((cfg1.win 3).blk t).view.read (Elt Ideal) (product1 V c) := by
  show (cfg1.win 3).cut (grid1.coords t) ((dat1 V c).after 3 t) = _
  rw [after1_3]
  unfold out1_3
  rw [View.canon_unit_zero origin2']
  simp only [View.ld_unit_zero (S := S2000x128) origin2', View.ld_unit_zero (S := S1x128) origin2', View.ld_unit_zero (S := S128x40) origin2']
  obtain ⟨e0, e1, e2, e3, e4, e5, e6, e7⟩ := index_facts1 t
  funext j
  show k1_pay1 (F := Ideal) (iblk1 V c 0 t) (iblk1 V c 1 t) (iblk1 V c 2 t) j = product1 V c (((cfg1.win 3).blk t).view.emb j)
  rw [pay1_apply]
  unfold product1 activatedProduct
  refine Finset.sum_congr rfl fun k _ => ?_
  have ha : ((cfg1.win 0).blk t).view.emb (lhs1At j k) = Cert.ReferenceIdeal.Read.lidx_main_v18 (((cfg1.win 3).blk t).view.emb j) k := by
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * k.val = k.val; omega
  have hb : ((cfg1.win 1).blk t).view.emb (biasAt k) = biasAt k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have hw : ((cfg1.win 2).blk t).view.emb (rhs1At j k) = Cert.ReferenceIdeal.Read.ridx_main_v18 (((cfg1.win 3).blk t).view.emb j) k := by
    funext a; apply Fin.ext
    match a with
    | ⟨0, _⟩ => show win1_2.index t (0 : Fin 2) * 128 + 1 * k.val = k.val; omega
    | ⟨1, _⟩ => show win1_2.index t (1 : Fin 2) * 40 + 1 * (j 1).val = win1_3.index t (1 : Fin 2) * 40 + 1 * (j 1).val; omega
  rw [iblk1_act V c t, iblk1_bias V c t, iblk1_weights V c t, ha, hb, hw]

/-- An entry of the output array is in point `t`'s block iff each coordinate is in the block's range. -/
theorem mem_blk1 (t : Fin cfg1.N) (i : S50000x40.Idx) :
    i ∈ ((cfg1.win 3).blk t).view.set ↔ ∀ a : Fin 2, win1_3.index t a * S2000x40.size a ≤ (i a).val ∧ (i a).val < win1_3.index t a * S2000x40.size a + S2000x40.size a := by
  show i ∈ ((View.whole main_v16).slice (win1_3.rect t)).set ↔ _
  rw [View.set_slice_whole, Rect.mem_set_unit]
  exact Iff.rfl

/-- Every entry is in the block of the point its row falls in. -/
theorem covered1 (i : S50000x40.Idx) : ∃ t : Fin cfg1.N, (cfg1.win 3).flush t = true ∧ i ∈ ((cfg1.win 3).blk t).view.set := by
  have hi0 : (i 0).val < 50000 := (i 0).isLt
  have hi1 : (i 1).val < 40 := (i 1).isLt
  obtain ⟨t, ht⟩ := index_onto1 ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 40 ≤ (i 1).val ∧ (i 1).val < win1_3.index t (1 : Fin 2) * 40 + 40; omega

/-- THE OUTPUT ARRAY after the second region is the activated rows times the weights, of the three arrays the region
    found. -/
theorem region1_array (c : Dev nD) : (dat1 V c).arrAt 3 cfg1.N = product1 V c :=
  (dat1 V c).arrAt_eq_of_cover 3 (product1 V c) (fun t _ => flushed1_eq V c t) (covered1)

end Cert.KernelIdeal.Res

end
-- ==== Proof.DenseEntries.lean ====
/-
  The specification's second dense product and hidden activation, read at an entry. `dense2 h w2` at `(r, c)` is the sum
  over the 128 hidden columns `k` of `h (r, k) · w2 (k, c)` — the host's matrix product at the ideal values is the plain sum,
  with no accumulator and no order —, and `hidden s b1` at `(r, k)` is `max (s (r, k) + b1 k) 0`: the bias row repeated down
  the nodes reads the bias at the column, and the zero splat reads the extended real `0`.
-/
import proofs.«159302_j83099027243170_2_alg».proof.Proof.Gen.ReferenceIdeal.Read
import proofs.«159302_j83099027243170_2_alg».proof.Proof.GraphConv
import Idealize.ShloMosaic.Lib.Pipeline.Value
import Idealize.ShloMosaic.Lib.ValueIdx
import Idealize.ShloMosaic.PureOps.Ideal.Laws

noncomputable section

namespace Cert.GraphConv

open Idealize.ShloMosaic Cert.ReferenceIdeal Cert.ReferenceIdeal.Gen Cert.ReferenceIdeal.Read

/-- The second dense product at an entry: the sum over the hidden columns. -/
theorem dense2_apply (H : FVec Ideal S50000x128 .f32) (W : FVec Ideal S128x40 .f32) (i : S50000x40.Idx) :
    dense2 H W i = ∑ k : Fin 128, H (lidx_main_v18 i k) * W (ridx_main_v18 i k) := by
  unfold dense2
  simp only [Host.dotGeneral]
  rw [Ideal.dotGeneral_apply, ← Equiv.sum_comp (ValueIdx.contrEquiv1 dot_S50000x128_S128x40_S50000x40_1_0_0_1_n_n 128 rfl rfl).symm]
  refine Finset.sum_congr rfl fun k _ => ?_
  have hk := ValueIdx.contrEquiv1_symm_val dot_S50000x128_S128x40_S50000x40_1_0_0_1_n_n 128 rfl rfl k
  have el : dot_S50000x128_S128x40_S50000x40_1_0_0_1_n_n.lhsIdx i ((ValueIdx.contrEquiv1 dot_S50000x128_S128x40_S50000x40_1_0_0_1_n_n 128 rfl rfl).symm k) = lidx_main_v18 i k := funext fun a => Fin.ext (by
    match a with
    | ⟨0, _⟩ => exact lhs_main_v18_0 _ _
    | ⟨1, _⟩ => exact (lhs_main_v18_1 _ _).trans hk)
  have er : dot_S50000x128_S128x40_S50000x40_1_0_0_1_n_n.rhsIdx i ((ValueIdx.contrEquiv1 dot_S50000x128_S128x40_S50000x40_1_0_0_1_n_n 128 rfl rfl).symm k) = ridx_main_v18 i k := funext fun a => Fin.ext (by
    match a with
    | ⟨0, _⟩ => exact (rhs_main_v18_0 _ _).trans hk
    | ⟨1, _⟩ => exact rhs_main_v18_1 _ _)
  rw [el, er]

/-- The hidden activation at an entry: the entry plus the bias of its column, or zero if that is negative. -/
theorem hidden_apply (s : FVec Ideal S50000x128 .f32) (b1 : FVec Ideal S128 .f32) (i : S50000x128.Idx) :
    hidden s b1 i = max (s i + b1 (idx_main_v14 (idx_main_v15 i))) 0 := by
  unfold hidden
  show max (s i + val_main_v15 (F := Ideal) b1 i) (val_main_call0_v0 (F := Ideal) i) = _
  rw [val_main_v15_apply, val_main_v14_apply, val_main_call0_v0_apply, val_main_call0_cst_apply]
  show max _ (Ideal.ofBits .f32 0x00000000#32) = _
  rw [Ideal.ofBits_zero_f32]

end Cert.GraphConv

end
-- ==== Proof.Bridge.lean ====
/-
  The idealized kernel program's result is the specification's `network` of the launch arguments. Reading the boundaries in
  order: the first region leaves `x · w1`; the host stretch after it leaves `A · (x · w1)`, the bias as one row and the
  second weights untouched; the second region leaves, entry by entry, `∑ k, max ((A · (x · w1)) (r, k) + b1 k) 0 · w2 (k, c)`,
  which is `relu (A · (x · w1) + b1) · w2` (the bias cast to one row reads the bias at the column); the last host
  stretch aggregates it and adds the output bias.
-/
import proofs.«159302_j83099027243170_2_alg».proof.Proof.KernelRun
import proofs.«159302_j83099027243170_2_alg».proof.Proof.HostStretches
import proofs.«159302_j83099027243170_2_alg».proof.Proof.Region0
import proofs.«159302_j83099027243170_2_alg».proof.Proof.Region1
import proofs.«159302_j83099027243170_2_alg».proof.Proof.DenseEntries

set_option maxRecDepth 16384

noncomputable section

namespace Cert.KernelIdeal.Res

open Idealize.ShloMosaic Idealize.ShloMosaic.TcCoe Idealize.SL.Sem
open Cert.KernelIdeal Cert.KernelIdeal.Gen

/-- The second region's formula of an aggregated table, the bias cast to one row, and weights is the second dense
    product of the hidden activation. -/
theorem activatedProduct_eq (s : FVec Ideal Cert.ReferenceIdeal.S50000x128 .f32) (b1 : FVec Ideal Cert.ReferenceIdeal.S128 .f32)
    (w2 : FVec Ideal Cert.ReferenceIdeal.S128x40 .f32) :
    activatedProduct s (shapeCast S1x128 b1 shapeCasts_S128_S1x128) w2 = Cert.GraphConv.dense2 (Cert.GraphConv.hidden s b1) w2 := by
  funext i
  unfold activatedProduct
  rw [Cert.GraphConv.dense2_apply]
  refine Finset.sum_congr rfl fun k _ => ?_
  rw [Cert.GraphConv.hidden_apply]
  have hb : shapeCast S1x128 b1 shapeCasts_S128_S1x128 (biasAt k)
      = b1 (Cert.ReferenceIdeal.Read.idx_main_v14 (Cert.ReferenceIdeal.Read.idx_main_v15 (Cert.ReferenceIdeal.Read.lidx_main_v18 i k))) :=
    shapeCast_apply b1 shapeCasts_S128_S1x128 (biasAt k) _ (by
      rw [Shape.rowMajor_val_two, Shape.rowMajor_val_one]
      show k.val = 0 * 128 + k.val
      omega)
  rw [hb]

variable (m : (ℓ : Loc nD τ sig) → Buf (Elt Ideal) ℓ) (ρ : Dev nD → PrngReg)

/-- After the first region its output array holds `x · w1`. -/
theorem W1_main_v0 (c : Dev nD) : W1 m ρ c (Proc.devRef .tc main_v0) = Cert.GraphConv.dense1 (m ((c : Thread nD τ).loc main_arg0)) (m ((c : Thread nD τ).loc main_arg4)) :=
  (W1_arr m ρ c 2).trans (region0_array (V0 m ρ) c)

/-- After the second region its output array holds `relu (A · (x · w1) + b1) · w2`. -/
theorem W3_main_v16 (c : Dev nD) : W3 m ρ c (Proc.devRef .tc main_v16)
    = Cert.GraphConv.dense2 (Cert.GraphConv.hidden (Cert.GraphConv.aggregate128 (m ((c : Thread nD τ).loc main_arg1)) (m ((c : Thread nD τ).loc main_arg2)) (m ((c : Thread nD τ).loc main_arg3))
        (Cert.GraphConv.dense1 (m ((c : Thread nD τ).loc main_arg0)) (m ((c : Thread nD τ).loc main_arg4)))) (m ((c : Thread nD τ).loc main_arg5))) (m ((c : Thread nD τ).loc main_arg6)) := by
  refine ((W3_arr m ρ c 3).trans (region1_array (V2 m ρ) c)).trans ?_
  show activatedProduct (W2 m ρ c (Proc.devRef .tc main_v14)) (W2 m ρ c (Proc.devRef .tc main_v15)) (W2 m ρ c (Proc.devRef .tc main_arg6)) = _
  rw [W2_main_v14, W2_main_v15, W2_main_arg6, W1_main_v0]
  exact activatedProduct_eq _ _ _

/-- The result buffer at the return holds the network of the launch arguments. -/
theorem result_eq (c : Dev nD) : W4 m ρ c (Proc.devRef .tc main_v33)
    = Cert.GraphConv.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W4_result, W3_main_v16]
  rfl

/-- Every weakly fair execution of the idealized kernel program terminates, nothing faulting, with the result at the
    network of the launch arguments and the arguments as launched. -/
theorem run_network : θ_run defs (onTc (τ := τ) (main (F := Ideal))) ⟨m, fun _ => 0, ρ⟩ (fun r => ∀ c : Dev nD,
      r.2.mem ((c.tc : Thread nD τ).loc main_v33)
        = Cert.GraphConv.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_result m ρ)

end Cert.KernelIdeal.Res

end
-- ==== Proof.lean ====
/- The proof of `Cert.Claim` for a two-layer graph convolution. With `A` the sparse adjacency in coordinate form (edge `e`
   carries weight `w e` from node `col e` into node `row e`), both programs compute, at the ideal values,

       A · (relu (A · (x · w1) + b1) · w2) + b2        (Proof/GraphConv.lean, `network`).

   The reference is that composition of host operations as printed. The kernel program computes the two dense products in
   kernel regions tiled by rows — `x · w1` in ten blocks of 5000 rows (Proof/Region0.lean), `relu (· + b1) · w2` in
   twenty-five blocks of 2000 rows with the bias and relu inside the body (Proof/Region1.lean) — and applies `A` on the
   host between and after them (Proof/HostStretches.lean). A row block of a matrix product is the product of the row
   block, a sum over the contracted index is the same sum on both sides term by term, a change of float format is the
   identity on extended reals, and the product of an entry and its edge weight does not depend on the order of its
   factors: no finiteness of the inputs is used. Proof/KernelRun.lean names the kernel program's result at its
   return, Proof/Bridge.lean reads it back through the four boundaries to `network` of the launch arguments.
   The three frames are the generated ones (the reference's its generated run with the result dropped); the ideal
   pass rewrote nothing, so the idealization claim is `True`. -/
import proofs.«159302_j83099027243170_2_alg».proof.Defs
import proofs.«159302_j83099027243170_2_alg».proof.Proof.Gen.Kernel
import proofs.«159302_j83099027243170_2_alg».proof.Proof.Gen.Kernel.Frame
import proofs.«159302_j83099027243170_2_alg».proof.Proof.Gen.KernelIdeal
import proofs.«159302_j83099027243170_2_alg».proof.Proof.Gen.KernelIdeal.Frame
import proofs.«159302_j83099027243170_2_alg».proof.Proof.Gen.ReferenceIdeal
import proofs.«159302_j83099027243170_2_alg».proof.Proof.Gen.ReferenceIdeal.Run
import proofs.«159302_j83099027243170_2_alg».proof.Proof.Gen.ReferenceIdeal.Read
import proofs.«159302_j83099027243170_2_alg».proof.Proof.Gen.Pre_finite_inputs
import proofs.«159302_j83099027243170_2_alg».proof.Proof.GraphConv
import proofs.«159302_j83099027243170_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the eight arguments both idealized programs end with the network of those arguments. -/
theorem algebraic : Cert.algebraic_KernelIdeal_ReferenceIdeal := by
  intro m ρ m' ρ' _ hagree
  refine ⟨_, Cert.KernelIdeal.Res.run_network m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
